-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x8192 : Shape := ⟨3, ![4096, 2, 8192]⟩
abbrev S2048x8192 : Shape := ⟨2, ![2048, 8192]⟩
abbrev S2048 : Shape := ⟨1, ![2048]⟩
abbrev S_ : Shape := ⟨0, ![]⟩

class Facts : Prop where
  bcast_S_S4096x2x8192 : S_.BroadcastsInDim S4096x2x8192 (![] : Fin 0 → Fin S4096x2x8192.rank)
  reducesTo_S4096x2x8192_S_d0_1_2 : S4096x2x8192.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2x8192 .f32) (main_arg1 : FVec F S2048x8192 .f32) (main_arg2 : FVec F S2048 .f32) : IVec S_ 1 :=
  let main_v0 : FVec F S4096x2x8192 .f32 := Host.absf main_arg0
  let main_cst : FVec F S_ .f32 := constant S_ .f32 0x7F800000#32
  let main_v1 : FVec F S4096x2x8192 .f32 := broadcastInDim S4096x2x8192 ![] bcast_S_S4096x2x8192 main_cst
  let main_v2 : IVec S4096x2x8192 1 := cmpf .olt main_v0 main_v1
  let main_c : IVec S_ 1 := constantI S_ 1 1#1
  let main_v3 : IVec S_ 1 := (fun x v => Host.reduce IntOp.andi x v reducesTo_S4096x2x8192_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2x8192 : Shape := ⟨3, ![4096, 2, 8192]⟩
abbrev S2048x8192 : Shape := ⟨2, ![2048, 8192]⟩
abbrev S2048 : Shape := ⟨1, ![2048]⟩
abbrev S8192x8192 : Shape := ⟨2, ![8192, 8192]⟩
abbrev S1x2048 : Shape := ⟨2, ![1, 2048]⟩
abbrev S8192x2048 : Shape := ⟨2, ![8192, 2048]⟩
abbrev S512x1024 : Shape := ⟨2, ![512, 1024]⟩
abbrev S2048x1024 : Shape := ⟨2, ![2048, 1024]⟩
abbrev S512x2048 : Shape := ⟨2, ![512, 2048]⟩
abbrev S4096x2x2048 : Shape := ⟨3, ![4096, 2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4096x2x8192, .f32⟩
  | .hbm, ⟨1, _⟩ => ⟨S2048x8192, .f32⟩
  | .hbm, ⟨2, _⟩ => ⟨S2048, .f32⟩
  | .hbm, ⟨3, _⟩ => ⟨S8192x8192, .f32⟩
  | .hbm, ⟨4, _⟩ => ⟨S1x2048, .f32⟩
  | .hbm, ⟨5, _⟩ => ⟨S2048x8192, .bf16⟩
  | .hbm, ⟨6, _⟩ => ⟨S8192x2048, .f32⟩
  | .hbm, ⟨7, _⟩ => ⟨S4096x2x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S4096x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096x2x8192_S8192x8192 : S4096x2x8192.ShapeCasts S8192x8192
  shapeCasts_S2048_S1x2048 : S2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4096x2x2048 : S8192x2048.ShapeCasts S4096x2x2048
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .bf16 = 32 ∨ (Rect.block (s := S2048x8192) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x2x8192 : Shape := ⟨3, ![4096, 2, 8192]⟩
abbrev S2048x8192 : Shape := ⟨2, ![2048, 8192]⟩
abbrev S2048 : Shape := ⟨1, ![2048]⟩
abbrev S4096x2x2048 : Shape := ⟨3, ![4096, 2, 2048]⟩
abbrev S1x1x2048 : Shape := ⟨3, ![1, 1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2x8192, .f32⟩
  | .hbm, ⟨1, _⟩ => ⟨S2048x8192, .f32⟩
  | .hbm, ⟨2, _⟩ => ⟨S2048, .f32⟩
  | .hbm, ⟨3, _⟩ => ⟨S4096x2x2048, .f32⟩
  | .hbm, ⟨4, _⟩ => ⟨S1x1x2048, .f32⟩
  | .hbm, ⟨5, _⟩ => ⟨S4096x2x2048, .f32⟩
  | .hbm, ⟨6, _⟩ => ⟨S4096x2x2048, .f32⟩
  | _, _ => ⟨S4096x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4096x2x2048_0_1_2 : S1x1x2048.BroadcastsInDim S4096x2x2048 (![0, 1, 2] : Fin 3 → Fin S4096x2x2048.rank)
  dot_S4096x2x8192_S2048x8192_S4096x2x2048_2_1_01_0_n_n_wf : DotDims.WF S4096x2x8192 S2048x8192 S4096x2x2048 [2] [1] [0, 1] [0] [] []

variable [Facts₀]

def dot_S4096x2x8192_S2048x8192_S4096x2x2048_2_1_01_0_n_n : DotDims S4096x2x8192 S2048x8192 S4096x2x2048 where
  lhsContracting := [2]
  rhsContracting := [1]
  lhsNonContracting := [0, 1]
  rhsNonContracting := [0]
  lhsBatch := []
  rhsBatch := []
  wf := dot_S4096x2x8192_S2048x8192_S4096x2x2048_2_1_01_0_n_n_wf

class Facts : Prop extends Facts₀ where

variable [Facts]
-- ==== Proof.BlockSum.lean ====
/-
  The arithmetic of a contraction taken in consecutive blocks. For a row `r` of an [8192, 8192] array `A` and a
  row `q` of a [2048, 8192] array `B`, the products `A (r, k) * B (q, k)` are summed over `k` in eight
  consecutive stretches of 1024 columns. `partialSum A B r q n` is the sum over the first `n` stretches (the first
  `1024 * n` columns). Adding the next stretch gives the next partial sum, and after eight stretches the partial sum
  is the sum over all 8192 columns. Only the commutative-monoid structure of addition on the extended reals is
  used, so nothing here asks the entries to be finite.
-/
import Idealize.ShloMosaic.PureOps.Ideal
import Idealize.ShloMosaic.Lib.ValueIdx

noncomputable section

namespace Cert.BlockSum

open Idealize.ShloMosaic Idealize.ShloMosaic.ValueIdx

variable (A : (⟨2, ![8192, 8192]⟩ : Shape).Idx → EReal) (B : (⟨2, ![2048, 8192]⟩ : Shape).Idx → EReal)
  (r : Fin 8192) (q : Fin 2048)

/-- The product at column `k` of row `r` of `A` and row `q` of `B`; zero past the last column. -/
def term (k : ℕ) : EReal :=
  if h : k < 8192 then A (ix2 r ⟨k, h⟩) * B (ix2 q ⟨k, h⟩) else 0

/-- The sum of the products over the first `n` stretches of 1024 columns. -/
def partialSum (n : ℕ) : EReal := ∑ k ∈ Finset.range (1024 * n), term A B r q k

/-- Before any stretch the partial sum is zero. -/
theorem partialSum_zero : partialSum A B r q 0 = 0 := by
  unfold partialSum
  rw [Nat.mul_zero, Finset.range_zero, Finset.sum_empty]

/-- The next partial sum is the previous one plus the sum over the next stretch. -/
theorem partialSum_succ (n : ℕ) :
    partialSum A B r q (n + 1) = partialSum A B r q n + ∑ kk : Fin 1024, term A B r q (1024 * n + kk.val) := by
  unfold partialSum
  rw [Nat.mul_succ, Finset.sum_range_add]
  exact congrArg (_ + ·) (Finset.sum_range fun x => term A B r q (1024 * n + x))

/-- After eight stretches the partial sum is the sum over every column. -/
theorem partialSum_full :
    partialSum A B r q 8 = ∑ k : Fin 8192, A (ix2 r k) * B (ix2 q k) := by
  unfold partialSum
  rw [show 1024 * 8 = 8192 from rfl, Finset.sum_range]
  refine Finset.sum_congr rfl fun k _ => ?_
  unfold term
  rw [dif_pos k.isLt]

/-- Inside the array, the product at a column is the product of the two entries. -/
theorem term_of_lt (k : ℕ) (h : k < 8192) : term A B r q k = A (ix2 r ⟨k, h⟩) * B (ix2 q ⟨k, h⟩) := by
  unfold term
  rw [dif_pos h]

end Cert.BlockSum

end
-- ==== Proof.Body.lean ====
/-
  What one run of the kernel body leaves behind, as values. The body keeps a [512, 2048] accumulator in a scratch
  buffer that persists from one grid point to the next. At a point whose contraction-block coordinate is zero it first
  stores the zero block into the accumulator; at every point it then replaces the accumulator by
  `accumulator + (row block of the left operand) · (column block of the right operand)ᵀ`; and at a point whose
  contraction-block coordinate is the last one it also stores `accumulator + bias row` into the output block.
  The body is therefore one of three cases (first block, middle block, last block). In each case the body's stores
  cover the whole buffer, so reading the buffer back gives the stored value itself: the accumulator
  ends at the second payload applied to the two input blocks and to what the accumulator held when the point began
  (the zero block in the first case), and in the last case the output block ends at the third payload applied to that
  new accumulator and the bias row. These equations hold for any float values.
-/
import proofs.«153997_j44856638439903_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- First contraction block: the accumulator ends at the zero block plus this block's product. -/
theorem acc_first (c : Dev nD) (i : grid0.Coords) (arg2 : Memref sig .tc .vmem S512x1024 .f32) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x1024 .f32) (x1 : Vec F S2048x1024 .bf16) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x2048) origin, View.readCov_unit_zero (S := S512x2048) _ origin]
  simp only [View.readAt_eq_ld, harg2.read_unread, harg3.read_unread, View.ld_unit_zero (S := S512x1024) origin,
    View.ld_unit_zero (S := S2048x1024) origin]

/-- A middle contraction block: the accumulator ends at what it held plus this block's product. -/
theorem acc_middle (c : Dev nD) (i : grid0.Coords) (arg2 : Memref sig .tc .vmem S512x1024 .f32) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x1024 .f32) (x1 : Vec F S2048x1024 .bf16) (x2 : Vec F S1x2048 .f32) (xs0 : Vec F S512x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin]
  simp only [View.readAt_eq_ld, harg2.read_unread, harg3.read_unread, harg6.read_unread,
    View.ld_unit_zero (S := S512x1024) origin, View.ld_unit_zero (S := S2048x1024) origin,
    View.ld_unit_zero (S := S512x2048) origin]

/-- The last contraction block: the accumulator ends, as in the middle, at what it held plus this block's product; -/
theorem acc_last (c : Dev nD) (i : grid0.Coords) (arg2 : Memref sig .tc .vmem S512x1024 .f32) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x1024 .f32) (x1 : Vec F S2048x1024 .bf16) (x2 : Vec F S1x2048 .f32) (xs0 : Vec F S512x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg6.read_unread,
    View.ld_unit_zero (S := S512x1024) origin, View.ld_unit_zero (S := S2048x1024) origin,
    View.ld_unit_zero (S := S512x2048) origin]

/-- and the output block ends at that new accumulator plus the bias row. -/
theorem out_last (c : Dev nD) (i : grid0.Coords) (arg2 : Memref sig .tc .vmem S512x1024 .f32) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x1024 .f32) (x1 : Vec F S2048x1024 .bf16) (x2 : Vec F S1x2048 .f32) (xs0 : Vec F S512x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg4.read_unread, harg6.read_unread,
    View.ld_unit_zero (S := S512x1024) origin, View.ld_unit_zero (S := S2048x1024) origin,
    View.ld_unit_zero (S := S512x2048) origin, View.ld_unit_zero (S := S1x2048) origin,
    View.readCov_unit_zero (S := S512x2048) _ origin]

end Cert.KernelIdeal.Body

end
-- ==== Proof.Payload.lean ====
/-
  The three stored values of the kernel body, read entry by entry over the extended reals.
  Writing `x` for the [512, 1024] block of the left operand, `w` for the [2048, 1024] block of the right operand,
  `a` for the [512, 2048] accumulator and `b` for the [1, 2048] bias row:
    the reset value is zero everywhere;
    the accumulation step at (p, q) is `a (p, q) + ∑ kk < 1024, x (p, kk) * w (q, kk)` — the change of float
      format applied to `x` is the identity on extended reals, and the matrix unit's product into a zero accumulator
      is the plain sum over the contracted axis, which is axis 1 of both operands;
    the output value at (p, q) is `a (p, q) + b (0, q)` — the bias row repeated on every row.
-/
import proofs.«153997_j44856638439903_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- The reset value: zero at every entry. -/
theorem reset_apply (j : S512x2048.Idx) : k0_pay1 (F := Ideal) j = 0 := by
  unfold k0_pay1
  rw [shapeCast_self]
  exact Ideal.ofBits_zero_f32

/-- Axis 0 of the left block is not contracted: the product at output entry `j` reads the left block in row `j 0`. -/
theorem lhs_row (j : S512x2048.Idx) (k : dot_S512x1024_S2048x1024_S512x2048_1_1_0_0_n_n.contr.Idx) :
    (dot_S512x1024_S2048x1024_S512x2048_1_1_0_0_n_n.lhsIdx j k 0).val = (j 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- Axis 0 of the right block is not contracted: the product at output entry `j` reads the right block in row `j 1`. -/
theorem rhs_row (j : S512x2048.Idx) (k : dot_S512x1024_S2048x1024_S512x2048_1_1_0_0_n_n.contr.Idx) :
    (dot_S512x1024_S2048x1024_S512x2048_1_1_0_0_n_n.rhsIdx j k 0).val = (j 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- The block product into a zero accumulator, at (p, q): the sum over the 1024 contracted columns. -/
theorem product_apply (x : FVec Ideal S512x1024 .bf16) (w : FVec Ideal S2048x1024 .bf16) (p : Fin 512) (q : Fin 2048) :
    matmul dot_S512x1024_S2048x1024_S512x2048_1_1_0_0_n_n none x w (constant S512x2048 .f32 0x00000000#32) (ix2 p q)
      = ∑ kk : Fin 1024, x (ix2 p kk) * w (ix2 q kk) := by
  refine (Ideal.matmul_constant_zero_apply dot_S512x1024_S2048x1024_S512x2048_1_1_0_0_n_n none x w (ix2 p q)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q) ((contrEquiv1 dot_S512x1024_S2048x1024_S512x2048_1_1_0_0_n_n 1024 rfl rfl).symm k) = ix2 p k :=
    funext fun a => Fin.ext (by
      match a with
      | ⟨0, _⟩ => exact lhs_row _ _
      | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p q) ((contrEquiv1 dot_S512x1024_S2048x1024_S512x2048_1_1_0_0_n_n 1024 rfl rfl).symm k) = ix2 q k :=
    funext fun a => Fin.ext (by
      match a with
      | ⟨0, _⟩ => exact rhs_row _ _
      | ⟨1, _⟩ => exact (dot_S512x1024_S2048x1024_S512x2048_1_1_0_0_n_n.rhsIdx_val_of_single rfl _ _).trans hk)
  rw [el, er]

/-- The accumulation step at (p, q): the accumulator's entry plus the block product's. -/
theorem step_apply (x : FVec Ideal S512x1024 .f32) (w : FVec Ideal S2048x1024 .bf16) (a : FVec Ideal S512x2048 .f32)
    (p : Fin 512) (q : Fin 2048) :
    k0_pay2 (F := Ideal) x w a (ix2 p q) = a (ix2 p q) + ∑ kk : Fin 1024, x (ix2 p kk) * w (ix2 q kk) := by
  unfold k0_pay2
  rw [shapeCast_self, shapeCast_self, shapeCast_self]
  exact congrArg (a (ix2 p q) + ·) (product_apply x w p q)

/-- The output value at (p, q): the accumulator's entry plus the bias row's entry in column `q`. -/
theorem output_apply (a : FVec Ideal S512x2048 .f32) (b : FVec Ideal S1x2048 .f32) (p : Fin 512) (q : Fin 2048) :
    k0_pay3 (F := Ideal) a b (ix2 p q) = a (ix2 p q) + b (ix2 (0 : Fin 1) q) := by
  unfold k0_pay3
  rw [shapeCast_self]
  exact congrArg (a (ix2 p q) + ·) (broadcastTo_1b_ab_apply b _ p q)

end Cert.KernelIdeal.Payload

end
-- ==== Proof.Entry.lean ====
/-
  What the kernel reads. Before the call the program reshapes the [4096, 2, 8192] input to [8192, 8192], reshapes the
  [2048] bias to one row [1, 2048], and converts the [2048, 8192] weight to a narrower float format. The call then walks
  a 16 × 8 grid, point `t` being (row block `t / 8`, contraction block `t % 8`). At point `t`
    the left block is rows `512 (t / 8) + p`, columns `1024 (t % 8) + kk` of the reshaped input;
    the right block is every row `q`, columns `1024 (t % 8) + kk` of the converted weight;
    the bias block is the whole bias row;
    the output block is rows `512 (t / 8) + p`, every column, of the [8192, 2048] result.
-/
import proofs.«153997_j44856638439903_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Entry

open Cert.KernelIdeal Cert.KernelIdeal.Gen

variable {F : FTy → Type} [FloatOps F]
variable (m : (ℓ : Loc nD τ sig) → Buf (Elt F) ℓ)

/-! ## The three arrays the call reads, from the program's arguments -/

/-- The left operand as the call finds it: the input reshaped to [8192, 8192]. -/
theorem lhs_array (c : Dev nD) :
    (V m c main_v0 : S8192x8192.Idx → Elt F .f32)
      = shapeCast S8192x8192 (m ((c : Thread nD τ).loc main_arg0)) shapeCasts_S4096x2x8192_S8192x8192 := by
  show StableHlo.after hostOps0 (fun b => m (c, b)) (Proc.devRef .tc main_v0) = _
  after_results
  rfl

/-- The bias as the call finds it: one row [1, 2048]. -/
theorem bias_array (c : Dev nD) :
    (V m c main_v1 : S1x2048.Idx → Elt F .f32)
      = shapeCast S1x2048 (m ((c : Thread nD τ).loc main_arg2)) shapeCasts_S2048_S1x2048 := by
  show StableHlo.after hostOps0 (fun b => m (c, b)) (Proc.devRef .tc main_v1) = _
  after_results
  rfl

/-- The right operand as the call finds it: the weight after the change of float format. -/
theorem rhs_array (c : Dev nD) :
    (V m c main_v2 : S2048x8192.Idx → Elt F .bf16)
      = truncf .bf16 (m ((c : Thread nD τ).loc main_arg1) : FVec F S2048x8192 .f32) bitsLt_bf16_f32 := by
  show StableHlo.after hostOps0 (fun b => m (c, b)) (Proc.devRef .tc main_v2) = _
  after_results

/-! ## Where each window's block sits, decided over the 128 grid points -/

theorem lhs_index : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

theorem rhs_index : ∀ t : Fin cfg0.N, win0_1.index t 0 = 0 ∧ win0_1.index t 1 = t.val % 8 :=
  (by decide +kernel : ∀ t : Fin grid0.N, win0_1.index t 0 = 0 ∧ win0_1.index t 1 = t.val % 8)

theorem bias_index : ∀ t : Fin cfg0.N, win0_2.index t 0 = 0 ∧ win0_2.index t 1 = 0 :=
  (by decide +kernel : ∀ t : Fin grid0.N, win0_2.index t 0 = 0 ∧ win0_2.index t 1 = 0)

theorem out_index : ∀ t : Fin cfg0.N, win0_3.index t 0 = t.val / 8 ∧ win0_3.index t 1 = 0 :=
  (by decide +kernel : ∀ t : Fin grid0.N, win0_3.index t 0 = t.val / 8 ∧ win0_3.index t 1 = 0)

/-- A grid point is below 128. -/
theorem point_lt (t : Fin cfg0.N) : t.val < 128 := lt_of_lt_of_eq t.isLt (show cfg0.N = 128 from N_0)

/-! ## The blocks, entry by entry -/

/-- The left block at point `t`, entry (p, kk): row `512 (t / 8) + p`, column `1024 (t % 8) + kk` of the left operand. -/
theorem lhs_block (c : Dev nD) (t : Fin cfg0.N) (p : Fin 512) (kk : Fin 1024) :
    (iblk m c 0 t : Vec F S512x1024 .f32) (ix2 p kk)
      = (V m c main_v0 : S8192x8192.Idx → Elt F .f32)
          (ix2 ⟨512 * (t.val / 8) + p.val, by have := point_lt t; omega⟩ ⟨1024 * (t.val % 8) + kk.val, by omega⟩) := by
  unfold iblk
  rw [View.read_apply]
  show V m c main_v0 _ = V m c main_v0 _
  refine congrArg (V m c main_v0) (funext fun a => Fin.ext ?_)
  match a with
  | ⟨0, _⟩ => show win0_0.index t 0 * 512 + 1 * p.val = 512 * (t.val / 8) + p.val; rw [(lhs_index t).1]; omega
  | ⟨1, _⟩ => show win0_0.index t 1 * 1024 + 1 * kk.val = 1024 * (t.val % 8) + kk.val; rw [(lhs_index t).2]; omega

/-- The right block at point `t`, entry (q, kk): row `q`, column `1024 (t % 8) + kk` of the right operand. -/
theorem rhs_block (c : Dev nD) (t : Fin cfg0.N) (q : Fin 2048) (kk : Fin 1024) :
    (iblk m c 1 t : Vec F S2048x1024 .bf16) (ix2 q kk)
      = (V m c main_v2 : S2048x8192.Idx → Elt F .bf16) (ix2 q ⟨1024 * (t.val % 8) + kk.val, by omega⟩) := by
  unfold iblk
  rw [View.read_apply]
  show V m c main_v2 _ = V m c main_v2 _
  refine congrArg (V m c main_v2) (funext fun a => Fin.ext ?_)
  match a with
  | ⟨0, _⟩ => show win0_1.index t 0 * 2048 + 1 * q.val = q.val; rw [(rhs_index t).1]; omega
  | ⟨1, _⟩ => show win0_1.index t 1 * 1024 + 1 * kk.val = 1024 * (t.val % 8) + kk.val; rw [(rhs_index t).2]; omega

/-- The bias block at any point is the bias row itself. -/
theorem bias_block (c : Dev nD) (t : Fin cfg0.N) (u : Fin 1) (q : Fin 2048) :
    (iblk m c 2 t : Vec F S1x2048 .f32) (ix2 u q) = (V m c main_v1 : S1x2048.Idx → Elt F .f32) (ix2 u q) := by
  unfold iblk
  rw [View.read_apply]
  show V m c main_v1 _ = V m c main_v1 _
  refine congrArg (V m c main_v1) (funext fun a => Fin.ext ?_)
  match a with
  | ⟨0, _⟩ => show win0_2.index t 0 * 1 + 1 * u.val = u.val; rw [(bias_index t).1]; omega
  | ⟨1, _⟩ => show win0_2.index t 1 * 2048 + 1 * q.val = q.val; rw [(bias_index t).2]; omega

end Cert.KernelIdeal.Entry

end
-- ==== Proof.Accumulate.lean ====
/-
  The accumulator, point by point. Fix a row block (512 rows of the left operand). The grid visits its eight
  contraction blocks in order, and after the block numbered `k` the accumulator's entry (p, q) is the sum of the
  products `left (r, j) * right (q, j)` over the first `1024 (k + 1)` columns `j`, where `r` is the row of the
  left operand that entry `p` of the row block stands for. This is proved by induction on the grid point: at the
  first block the accumulator is reset to zero and receives the first stretch; at every later block it holds the
  previous partial sum and receives the next stretch. At the last block the output block's entry (p, q) is the sum
  over all eight stretches plus the bias entry of column `q`.
-/
import proofs.«153997_j44856638439903_2_alg».proof.Proof.BlockSum
import proofs.«153997_j44856638439903_2_alg».proof.Proof.Body
import proofs.«153997_j44856638439903_2_alg».proof.Proof.Payload
import proofs.«153997_j44856638439903_2_alg».proof.Proof.Entry

set_option maxRecDepth 16384

noncomputable section

open Idealize.ShloMosaic Idealize.ShloMosaic.TcCoe Idealize.SL.Sem Idealize.ShloMosaic.ValueIdx

namespace Cert.KernelIdeal.Accumulate

open Cert.KernelIdeal Cert.KernelIdeal.Gen Cert.BlockSum

/-- One accumulation step, on any blocks: if the left block's row `p` is columns `1024 k + kk` of row `r` of `A`,
    the right block's row `q` is the same columns of row `q` of `B`, and the accumulator's entry is the partial sum
    over the first `k` stretches, then the step's entry is the partial sum over the first `k + 1`. -/
theorem step_value (A : (⟨2, ![8192, 8192]⟩ : Shape).Idx → EReal) (B : (⟨2, ![2048, 8192]⟩ : Shape).Idx → EReal)
    (x : FVec Ideal S512x1024 .f32) (w : FVec Ideal S2048x1024 .bf16) (a : FVec Ideal S512x2048 .f32)
    (p : Fin 512) (q : Fin 2048) (r : Fin 8192) (k : ℕ) (hk : k < 8)
    (hx : ∀ kk : Fin 1024, x (ix2 p kk) = A (ix2 r ⟨1024 * k + kk.val, by omega⟩))
    (hw : ∀ kk : Fin 1024, w (ix2 q kk) = B (ix2 q ⟨1024 * k + kk.val, by omega⟩))
    (ha : a (ix2 p q) = partialSum A B r q k) :
    k0_pay2 (F := Ideal) x w a (ix2 p q) = partialSum A B r q (k + 1) := by
  rw [Payload.step_apply, ha, partialSum_succ]
  refine congrArg (partialSum A B r q k + ·) (Finset.sum_congr rfl fun kk _ => ?_)
  rw [hx kk, hw kk, term_of_lt A B r q _ (by omega)]

variable (m : (ℓ : Loc nD τ sig) → Buf (Elt Ideal) ℓ)

/-- The left operand, the right operand and the bias row as the call finds them. -/
abbrev lhs (c : Dev nD) : (⟨2, ![8192, 8192]⟩ : Shape).Idx → EReal := V m c main_v0
abbrev rhs (c : Dev nD) : (⟨2, ![2048, 8192]⟩ : Shape).Idx → EReal := V m c main_v2
abbrev bias (c : Dev nD) : (⟨2, ![1, 2048]⟩ : Shape).Idx → EReal := V m c main_v1

/-- The rows of a row block lie inside the left operand. -/
theorem row_lt (t : Fin cfg0.N) (p : Fin 512) : 512 * (t.val / 8) + p.val < 8192 := by
  have := Entry.point_lt t
  omega

/-- The left block at point `t` is stretch `k = t % 8` of row `r = 512 (t / 8) + p`. -/
theorem lhs_stretch (c : Dev nD) (t : Fin cfg0.N) (p : Fin 512) (r : Fin 8192) (k : ℕ) (hk : k < 8)
    (hr : r.val = 512 * (t.val / 8) + p.val) (hkt : k = t.val % 8) (kk : Fin 1024) :
    (iblk m c 0 t : Vec Ideal S512x1024 .f32) (ix2 p kk) = lhs m c (ix2 r ⟨1024 * k + kk.val, by omega⟩) := by
  subst hkt
  obtain rfl : r = ⟨512 * (t.val / 8) + p.val, row_lt t p⟩ := Fin.ext hr
  exact Entry.lhs_block m c t p kk

/-- The right block at point `t` is stretch `k = t % 8` of every row. -/
theorem rhs_stretch (c : Dev nD) (t : Fin cfg0.N) (q : Fin 2048) (k : ℕ) (hk : k < 8)
    (hkt : k = t.val % 8) (kk : Fin 1024) :
    (iblk m c 1 t : Vec Ideal S2048x1024 .bf16) (ix2 q kk) = rhs m c (ix2 q ⟨1024 * k + kk.val, by omega⟩) := by
  subst hkt
  exact Entry.rhs_block m c t q kk

/-- THE ACCUMULATOR after point `n`: the partial sum over the first `n % 8 + 1` stretches, for the row
    `512 (n / 8) + p`. By induction on the point. -/
theorem acc_eq (c : Dev nD) : ∀ (n : ℕ) (h : n < cfg0.N) (p : Fin 512) (q : Fin 2048) (r : Fin 8192) (k : ℕ),
    r.val = 512 * (n / 8) + p.val → k = n % 8 →
    (outsAt0 m c n h).2 (ix2 p q) = partialSum (lhs m c) (rhs m c) r q (k + 1)
  | 0, h, p, q, r, k, hr, hk => by
    rw [outsAt0_A m c ⟨0, h⟩ rfl (by dsimp only; omega)]
    dsimp only
    rw [Body.acc_first]
    exact step_value (lhs m c) (rhs m c) (iblk m c 0 ⟨0, h⟩) (iblk m c 1 ⟨0, h⟩) _ p q r k (by omega)
      (lhs_stretch m c ⟨0, h⟩ p r k (by omega) hr hk) (rhs_stretch m c ⟨0, h⟩ q k (by omega) hk)
      ((Payload.reset_apply _).trans (by rw [show k = 0 from by omega, partialSum_zero]))
  | n + 1, h, p, q, r, k, hr, hk => by
    have hN : n + 1 < 128 := lt_of_lt_of_eq h (show cfg0.N = 128 from N_0)
    by_cases h0 : (n + 1) % 8 = 0
    · rw [outsAt0_A m c ⟨n + 1, h⟩ h0 (by dsimp only; omega)]
      dsimp only
      rw [Body.acc_first]
      exact step_value (lhs m c) (rhs m c) (iblk m c 0 ⟨n + 1, h⟩) (iblk m c 1 ⟨n + 1, h⟩) _ p q r k (by omega)
        (lhs_stretch m c ⟨n + 1, h⟩ p r k (by omega) hr hk) (rhs_stretch m c ⟨n + 1, h⟩ q k (by omega) hk)
        ((Payload.reset_apply _).trans (by rw [show k = 0 from by omega, partialSum_zero]))
    · have ih : (outsAt0 m c n (Nat.lt_of_succ_lt h)).2 (ix2 p q) = partialSum (lhs m c) (rhs m c) r q k :=
        (acc_eq c n (Nat.lt_of_succ_lt h) p q r (n % 8) (by omega) rfl).trans
          (congrArg (partialSum (lhs m c) (rhs m c) r q) (by omega))
      by_cases h1 : (n + 1) % 8 = 7
      · rw [outsAt0_C m c ⟨n + 1, h⟩ h0 h1]
        dsimp only
        rw [Body.acc_last]
        exact step_value (lhs m c) (rhs m c) (iblk m c 0 ⟨n + 1, h⟩) (iblk m c 1 ⟨n + 1, h⟩) _ p q r k (by omega)
          (lhs_stretch m c ⟨n + 1, h⟩ p r k (by omega) hr hk) (rhs_stretch m c ⟨n + 1, h⟩ q k (by omega) hk) ih
      · rw [outsAt0_B m c ⟨n + 1, h⟩ h0 h1]
        dsimp only
        rw [Body.acc_middle]
        exact step_value (lhs m c) (rhs m c) (iblk m c 0 ⟨n + 1, h⟩) (iblk m c 1 ⟨n + 1, h⟩) _ p q r k (by omega)
          (lhs_stretch m c ⟨n + 1, h⟩ p r k (by omega) hr hk) (rhs_stretch m c ⟨n + 1, h⟩ q k (by omega) hk) ih

/-- THE OUTPUT BLOCK at a last-block point `t` (`t % 8 = 7`): the sum over all 8192 columns plus the bias entry. -/
theorem out_eq (c : Dev nD) (t : Fin cfg0.N) (h1 : t.val % 8 = 7) (p : Fin 512) (q : Fin 2048) (r : Fin 8192)
    (hr : r.val = 512 * (t.val / 8) + p.val) :
    (outsAt0 m c t.val t.isLt).1 (ix2 p q)
      = (∑ j : Fin 8192, lhs m c (ix2 r j) * rhs m c (ix2 q j)) + bias m c (ix2 (0 : Fin 1) q) := by
  have hN := Entry.point_lt t
  have h0 : ¬t.val % 8 = 0 := by omega
  rw [outsAt0_C m c t h0 h1]
  dsimp only
  rw [Body.out_last]
  refine (Payload.output_apply _ _ p q).trans ?_
  rw [← partialSum_full]
  refine congrArg₂ (· + ·) ?_ (Entry.bias_block m c t 0 q)
  exact step_value (lhs m c) (rhs m c) (iblk m c 0 t) (iblk m c 1 t) _ p q r 7 (by omega)
    (lhs_stretch m c t p r 7 (by omega) hr h1.symm) (rhs_stretch m c t q 7 (by omega) h1.symm)
    ((acc_eq m c (t.val - 1) (Nat.lt_of_le_of_lt (Nat.sub_le _ _) t.isLt) p q r 6 (by omega) (by omega)))

end Cert.KernelIdeal.Accumulate

end
-- ==== Proof.Result.lean ====
/-
  The kernel's result. The [8192, 2048] array the call writes ends holding, at (r, q),
  `∑ j < 8192, left (r, j) * right (q, j) + bias (0, q)`: the output block of row block `i` is written back once,
  at the grid point of its last contraction block, and holds that value at every entry; the sixteen row blocks tile the
  array. The program then reshapes this array to [4096, 2, 2048], which is the result the claim speaks of.
-/
import proofs.«153997_j44856638439903_2_alg».proof.Proof.Accumulate
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accumulate

/-- One entry of the product with bias: row `r` of `A` against row `q` of `B`, plus the bias entry of column `q`. -/
def entry (A : (⟨2, ![8192, 8192]⟩ : Shape).Idx → EReal) (B : (⟨2, ![2048, 8192]⟩ : Shape).Idx → EReal)
    (b : (⟨2, ![1, 2048]⟩ : Shape).Idx → EReal) (r : Fin 8192) (q : Fin 2048) : EReal :=
  (∑ j : Fin 8192, A (ix2 r j) * B (ix2 q j)) + b (ix2 (0 : Fin 1) q)

variable (m : (ℓ : Loc nD τ sig) → Buf (Elt Ideal) ℓ) (ρ : Dev nD → PrngReg)

/-- The [8192, 2048] array the call leaves: the product with bias of the arrays the call found. -/
def product (c : Dev nD) : S8192x2048.Idx → EReal := fun i => entry (lhs m c) (rhs m c) (bias m c) (i 0) (i 1)

/-- WHAT A WRITE-BACK HOLDS: at a point that writes the output block back (a last contraction block), the block is
    the product with bias read through the block's place in the array. -/
theorem flushed_eq (c : Dev nD) (t : Fin cfg0.N) (hf : (cfg0.win 3).flush t = true) :
    (dats m 0 c).flushed 3 t = ((cfg0.win 3).blk t).view.read (Elt Ideal) (product m c) := by
  have h1 : t.val % 8 = 7 := (flush0_3 t).mp hf
  show (cfg0.win 3).cut (grid0.coords t) ((dats m 0 c).after 3 t) = _
  rw [after0_3]
  funext j
  obtain ⟨p, q, rfl⟩ : ∃ (p : Fin 512) (q : Fin 2048), j = ix2 p q := ⟨j 0, j 1, eq_ix2 (n0 := 512) (n1 := 2048) j⟩
  show (outsAt0 m c t.val t.isLt).1 (ix2 p q) = product m c (((cfg0.win 3).blk t).view.emb (ix2 p q))
  rw [out_eq m c t h1 p q ⟨512 * (t.val / 8) + p.val, row_lt t p⟩ rfl]
  unfold product
  refine congrArg₂ (entry (lhs m c) (rhs m c) (bias m c)) (Fin.ext ?_) (Fin.ext ?_)
  · show 512 * (t.val / 8) + p.val = win0_3.index t 0 * 512 + 1 * p.val
    rw [(Entry.out_index t).1]; omega
  · show q.val = win0_3.index t 1 * 2048 + 1 * q.val
    rw [(Entry.out_index t).2]; omega

/-- An entry of the array lies in point `t`'s output block iff each coordinate lies in the block's range. -/
theorem mem_block (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v3).slice (win0_3.rect t)).set ↔ _
  rw [View.set_slice_whole, Rect.mem_set_unit]
  exact Iff.rfl

/-- THE COVER: row `i 0` lies in row block `i 0 / 512`, whose output block is written back at that block's last
    contraction block, point `8 (i 0 / 512) + 7`. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 128 := N_0
  have ht : 8 * ((i 0).val / 512) + 7 < cfg0.N := by omega
  obtain ⟨e0, e1⟩ := Entry.out_index ⟨8 * ((i 0).val / 512) + 7, ht⟩
  refine ⟨⟨8 * ((i 0).val / 512) + 7, ht⟩, (flush0_3 _).mpr (by dsimp only; omega), ?_⟩
  rw [mem_block]
  intro a
  match a with
  | ⟨0, _⟩ =>
    show win0_3.index ⟨8 * ((i 0).val / 512) + 7, ht⟩ 0 * 512 ≤ (i 0).val
      ∧ (i 0).val < win0_3.index ⟨8 * ((i 0).val / 512) + 7, ht⟩ 0 * 512 + 512
    rw [e0]; dsimp only; omega
  | ⟨1, _⟩ =>
    show win0_3.index ⟨8 * ((i 0).val / 512) + 7, ht⟩ 1 * 2048 ≤ (i 1).val
      ∧ (i 1).val < win0_3.index ⟨8 * ((i 0).val / 512) + 7, ht⟩ 1 * 2048 + 2048
    rw [e1]; omega

/-- THE ARRAY after the call: the product with bias. -/
theorem final (c : Dev nD) : (dats m 0 c).arrAt 3 cfg0.N = product m c :=
  (dats m 0 c).arrAt_eq_of_cover 3 (product m c) (flushed_eq m c) covered

/-- The program's result: the reshape to [4096, 2, 2048] of the product with bias. -/
theorem tail_eq (c : Dev nD) :
    Pipeline.afterTail₀ cfgs (dats m) 0 (V0 m) [hostOps1] c main_v4
      = shapeCast S4096x2x2048 (product m c) shapeCasts_S8192x2048_S4096x2x2048 := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3) = product m c :=
    (Pipeline.withArrays_arr spec0 launch0.win.arr_inj c (V0 m c) (fun w => (dats m 0 c).arrAt w (cfgs 0).N) 3).trans
      (final m c)
  rw [e]
  rfl

/-- THE KERNEL'S RUN, read: every weakly fair execution terminates with the result at the reshaped product with bias
    and the three arguments as launched. -/
theorem run : θ_run defs (onTc (τ := τ) (main (F := Ideal))) ⟨m, fun _ => 0, ρ⟩ fun r => ∀ c : Dev nD,
      r.2.mem ((c.tc : Thread nD τ).loc main_v4)
        = shapeCast S4096x2x2048 (product m c) shapeCasts_S8192x2048_S4096x2x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.Bridge.lean ====
/-
  The two programs compute one function. At (s, b, n) both results are
  `∑ j < 8192, input (s, b, j) * weight (n, j) + bias n` over the extended reals.
  The reference: its `dot_general` contracts axis 2 of the input with axis 1 of the weight, and its two broadcasts
  repeat the bias along the first two axes.
  The kernel: its result is the reshape to [4096, 2, 2048] of the [8192, 2048] product with bias, whose row
  `2 s + b` is row (s, b) of the input because the input was reshaped to [8192, 8192] in the same row-major order;
  the weight's change of float format is the identity on extended reals; the bias row's entry in column `n` is
  the bias entry `n`.
-/
import proofs.«153997_j44856638439903_2_alg».proof.Proof.Result
import proofs.«153997_j44856638439903_2_alg».proof.Proof.Gen.ReferenceIdeal.Read
import Idealize.ShloMosaic.Lib.ValueLayout

set_option maxRecDepth 16384

noncomputable section

open Idealize.ShloMosaic Idealize.ShloMosaic.TcCoe Idealize.SL.Sem Idealize.ShloMosaic.ValueIdx

namespace Cert.Bridge

/-- The common value at (s, b, n). -/
def closed (X : (⟨3, ![4096, 2, 8192]⟩ : Shape).Idx → EReal) (W : (⟨2, ![2048, 8192]⟩ : Shape).Idx → EReal)
    (Bv : (⟨1, ![2048]⟩ : Shape).Idx → EReal) (s : Fin 4096) (b : Fin 2) (n : Fin 2048) : EReal :=
  (∑ j : Fin 8192, X (ix3 s b j) * W (ix2 n j)) + Bv (ix1 n)

/-- The reference's result at (s, b, n). -/
theorem reference_apply (X : (⟨3, ![4096, 2, 8192]⟩ : Shape).Idx → EReal) (W : (⟨2, ![2048, 8192]⟩ : Shape).Idx → EReal)
    (Bv : (⟨1, ![2048]⟩ : Shape).Idx → EReal) (s : Fin 4096) (b : Fin 2) (n : Fin 2048) :
    Cert.ReferenceIdeal.Read.val_main_v3 (F := Ideal) X W Bv (ix3 s b n) = closed X W Bv s b n := by
  have el : ∀ k : Fin 8192, Cert.ReferenceIdeal.Read.lidx_main_v0 (ix3 s b n) k = ix3 s b k := fun k =>
    funext fun a => by match a with | ⟨0, _⟩ => rfl | ⟨1, _⟩ => rfl | ⟨2, _⟩ => rfl
  have er : ∀ k : Fin 8192, Cert.ReferenceIdeal.Read.ridx_main_v0 (ix3 s b n) k = ix2 n k := fun k =>
    funext fun a => by match a with | ⟨0, _⟩ => rfl | ⟨1, _⟩ => rfl
  have eb : Cert.ReferenceIdeal.Read.idx_main_v1 (Cert.ReferenceIdeal.Read.idx_main_v2 (ix3 s b n)) = ix1 n :=
    funext fun a => by match a with | ⟨0, _⟩ => rfl
  rw [Cert.ReferenceIdeal.Read.val_main_v3_apply, Cert.ReferenceIdeal.Read.val_main_v0_apply,
    Cert.ReferenceIdeal.Read.val_main_v2_apply, Cert.ReferenceIdeal.Read.val_main_v1_apply, eb]
  unfold closed
  refine congrArg₂ (· + ·) (Finset.sum_congr rfl fun k _ => ?_) rfl
  rw [el k, er k]

open Cert.KernelIdeal Cert.KernelIdeal.Gen Cert.KernelIdeal.Accumulate Cert.KernelIdeal.Result

variable (m : (ℓ : Loc nD τ sig) → Buf (Elt Ideal) ℓ)

/-- The kernel's result at (s, b, n). -/
theorem kernel_apply (c : Dev nD) (s : Fin 4096) (b : Fin 2) (n : Fin 2048) :
    shapeCast S4096x2x2048 (product m c) shapeCasts_S8192x2048_S4096x2x2048 (ix3 s b n)
      = closed (m ((c : Thread nD τ).loc main_arg0)) (m ((c : Thread nD τ).loc main_arg1))
          (m ((c : Thread nD τ).loc main_arg2)) s b n := by
  have hr : 2 * s.val + b.val < 8192 := by omega
  refine (shapeCast_apply (product m c) shapeCasts_S8192x2048_S4096x2x2048 (ix3 s b n)
    (ix2 (⟨2 * s.val + b.val, hr⟩ : Fin 8192) n) (by
      rw [Shape.rowMajor_val_two, Shape.rowMajor_val_three]
      show (2 * s.val + b.val) * 2048 + n.val = (s.val * 2 + b.val) * 2048 + n.val
      omega)).trans ?_
  unfold product entry closed
  refine congrArg₂ (· + ·) (Finset.sum_congr rfl fun j _ => congrArg₂ (· * ·) ?_ ?_) ?_
  · refine (congrFun (Entry.lhs_array m c) (ix2 (⟨2 * s.val + b.val, hr⟩ : Fin 8192) j)).trans ?_
    exact shapeCast_apply _ _ _ (ix3 s b j) (by
      rw [Shape.rowMajor_val_three, Shape.rowMajor_val_two]
      show (s.val * 2 + b.val) * 8192 + j.val = (2 * s.val + b.val) * 8192 + j.val
      omega)
  · exact congrFun (Entry.rhs_array m c) (ix2 n j)
  · refine (congrFun (Entry.bias_array m c) (ix2 (0 : Fin 1) n)).trans ?_
    exact shapeCast_a_1a_apply _ _ 0 n

/-- So the kernel's result array is the reference's function of the same arguments. -/
theorem result_eq (c : Dev nD) :
    shapeCast S4096x2x2048 (product m c) shapeCasts_S8192x2048_S4096x2x2048
      = Cert.ReferenceIdeal.Read.val_main_v3 (F := Ideal) (m ((c : Thread nD τ).loc main_arg0))
          (m ((c : Thread nD τ).loc main_arg1)) (m ((c : Thread nD τ).loc main_arg2)) := by
  funext i
  obtain ⟨s, b, n, rfl⟩ : ∃ (s : Fin 4096) (b : Fin 2) (n : Fin 2048), i = ix3 s b n :=
    ⟨i 0, i 1, i 2, eq_ix3 (n0 := 4096) (n1 := 2) (n2 := 2048) i⟩
  rw [kernel_apply, reference_apply]

end Cert.Bridge

end
-- ==== Proof.lean ====
/-
  A row-parallel linear layer: `out (s, b, n) = ∑ k < 8192, input (s, b, k) * weight (n, k) + bias n`, for an input
  of shape [4096, 2, 8192], a weight of shape [2048, 8192] and a bias of shape [2048].

  The reference takes one contraction of the input's last axis with the weight's last axis and adds the bias repeated
  along the first two axes.

  The kernel flattens the input to [8192, 8192], converts the weight to a narrower float format (the identity on the
  extended reals), and walks a 16 × 8 grid: for each block of 512 rows it visits the eight blocks of 1024 contracted
  columns in order, keeping a [512, 2048] accumulator that is reset to zero at the first block, receives the block's
  product at every block, and is written out with the bias added at the last block; the [8192, 2048] result is then
  reshaped to [4096, 2, 2048].

  Why the two agree on the extended reals: after contraction block `k` the accumulator's entry is the sum of the
  products over the first `1024 (k + 1)` columns (induction on the grid point), so after the eighth block it is the
  sum over all 8192 columns; splitting a finite sum into consecutive stretches uses only that addition is associative
  and commutative with zero as unit, which holds on the extended reals, so the finiteness of the inputs is never
  used. The two reshapes are the same row-major re-indexing, `(s, b) ↔ 2 s + b`.

  The modules: BlockSum (partial sums over stretches of columns), Body (what one run of the body leaves in the
  accumulator and the output block), Payload (the stored values entry by entry), Entry (the arrays and blocks the
  call reads), Accumulate (the induction over grid points), Result (the result array and the kernel's run), Bridge
  (both results are one function of the arguments).

  The three frames: the kernel's two are the generated frame runs; the reference's is its generated run with the
  result forgotten. The idealization rewrote nothing, so its claim is trivial.
-/
import proofs.«153997_j44856638439903_2_alg».proof.Defs
import proofs.«153997_j44856638439903_2_alg».proof.Proof.Gen.Kernel
import proofs.«153997_j44856638439903_2_alg».proof.Proof.Gen.Kernel.Skeleton
import proofs.«153997_j44856638439903_2_alg».proof.Proof.Gen.Kernel.Launch
import proofs.«153997_j44856638439903_2_alg».proof.Proof.Gen.Kernel.Points
import proofs.«153997_j44856638439903_2_alg».proof.Proof.Gen.Kernel.Frame
import proofs.«153997_j44856638439903_2_alg».proof.Proof.Gen.KernelIdeal
import proofs.«153997_j44856638439903_2_alg».proof.Proof.Gen.KernelIdeal.Skeleton
import proofs.«153997_j44856638439903_2_alg».proof.Proof.Gen.KernelIdeal.Launch
import proofs.«153997_j44856638439903_2_alg».proof.Proof.Gen.KernelIdeal.Points
import proofs.«153997_j44856638439903_2_alg».proof.Proof.Gen.KernelIdeal.Frame
import proofs.«153997_j44856638439903_2_alg».proof.Proof.Gen.ReferenceIdeal
import proofs.«153997_j44856638439903_2_alg».proof.Proof.Gen.ReferenceIdeal.Run
import proofs.«153997_j44856638439903_2_alg».proof.Proof.Gen.ReferenceIdeal.Read
import proofs.«153997_j44856638439903_2_alg».proof.Proof.Gen.Pre_finite_inputs
import proofs.«153997_j44856638439903_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the three arguments, the kernel's result array ends at the
    reshaped product with bias and the reference's at its contraction plus bias: one function of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
